-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 25
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S1x128, .f32⟩
  | .hbm, ⟨8, _⟩ => ⟨S50000x64, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .bf16⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .bf16 = 32 ∨ (Rect.block (s := S50000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S50000x64, .f32⟩
  | .hbm, ⟨45, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_cst : Ref sig .tc := ⟨.hbm, 31, rfl⟩
abbrev main_call1_v0 : Ref sig .tc := ⟨.hbm, 32, rfl⟩
abbrev main_call1_cst_0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_cst_1 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  The program is four stretches in a row: the reshape of b1; the first launch (a pipelined grid of 10 row blocks); the
  host lines that gather the projected rows by the edges' sources and add them up by the edges' destinations; the second
  launch (bias and log-softmax, again 10 row blocks). Every weakly fair execution terminates, and at the end every
  unscoped buffer of a core holds the contents folded through the four stretches from the launch memory. In particular
  the returned array holds what the second launch's write-backs leave, and the seven arguments hold what they held.
-/
import proofs.«181841_j79379585564874_2_alg».proof.Proof.Gen.KernelIdeal.Frame

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the returned array at the last boundary's contents and the arguments
    as launched. -/
theorem run_folded : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelSide

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.GraphConvLaw.lean ====
/-
  A two-layer graph convolution in two arrangements, and the law that joins them.

  A node's hidden row is relu of its features times W1 plus b1. Every node i then receives, over the edges e that end at
  i, the hidden row of the edge's source node; the logits are that aggregate times W2 plus b2, and the result is the
  log-softmax of each node's logits.

  One arrangement multiplies every hidden row by W2 FIRST and aggregates the projected rows; the other aggregates the
  hidden rows first and multiplies the aggregate by W2. For node i and class c the first is
      Σ_{e ends at i} Σ_k h(src e, k) · W2(k, c)
  and the second
      Σ_k (Σ_{e ends at i} h(src e, k)) · W2(k, c).
  They are equal when every h and every W2 entry is a real number: exchange the two finite sums and pull the factor
  W2(k, c), which does not depend on e, out of the inner sum. The second step is distributivity, which fails on the
  extended reals when infinities of both signs meet, so finiteness is used exactly there. The sets of edges that end at
  a node and the source of an edge are arbitrary here.
-/
import proofs.«181841_j79379585564874_2_alg».proof.Proof.LibFinite

noncomputable section

open scoped BigOperators

namespace Cert.GraphConv

open Idealize.ShloMosaic Cert.LibFinite

variable {N D H C R : ℕ}

/-- The hidden layer: relu (x · W1 + b1), entry (n, k). -/
def hid (x : Fin N → Fin D → EReal) (W1 : Fin D → Fin H → EReal) (b1 : Fin H → EReal) (n : Fin N) (k : Fin H) : EReal :=
  max (∑ l, x n l * W1 l k + b1 k) 0

/-- With real inputs every hidden entry is real. -/
theorem hid_fin {x : Fin N → Fin D → EReal} {W1 : Fin D → Fin H → EReal} {b1 : Fin H → EReal}
    (hx : ∀ n l, IsFin (x n l)) (hW : ∀ l k, IsFin (W1 l k)) (hb : ∀ k, IsFin (b1 k)) (n : Fin N) (k : Fin H) :
    IsFin (hid x W1 b1 n k) :=
  IsFin.max (IsFin.add (IsFin.sum _ _ fun l _ => IsFin.mul (hx n l) (hW l k)) (hb k)) IsFin.zero

/-- The logits when each hidden row is projected by W2 before the aggregation. -/
def logitsProjFirst (h : Fin N → Fin H → EReal) (W2 : Fin H → Fin C → EReal) (b2 : Fin C → EReal)
    (E : Fin N → Finset (Fin R)) (src : Fin R → Fin N) (i : Fin N) (c : Fin C) : EReal :=
  (∑ e ∈ E i, ∑ k, h (src e) k * W2 k c) + b2 c

/-- The logits when the hidden rows are aggregated before the projection by W2. -/
def logitsAggFirst (h : Fin N → Fin H → EReal) (W2 : Fin H → Fin C → EReal) (b2 : Fin C → EReal)
    (E : Fin N → Finset (Fin R)) (src : Fin R → Fin N) (i : Fin N) (c : Fin C) : EReal :=
  (∑ k, (∑ e ∈ E i, h (src e) k) * W2 k c) + b2 c

/-- A real factor on the right goes through a finite sum of real terms. -/
theorem sum_mul_of_fin {ι : Type} (s : Finset ι) (a : ι → EReal) (w : EReal) (ha : ∀ i, IsFin (a i)) (hw : IsFin w) :
    (∑ i ∈ s, a i) * w = ∑ i ∈ s, a i * w := by
  classical
  refine Finset.induction_on s ?_ ?_
  · simp
  · intro j s hj ih
    rw [Finset.sum_insert hj, Finset.sum_insert hj, ← ih, mul_comm,
      mul_add_of_fin hw (ha j) (IsFin.sum s a fun i _ => ha i), mul_comm w, mul_comm w]

/-- The two arrangements give the same logits when the hidden entries and W2's entries are real. -/
theorem logits_eq {h : Fin N → Fin H → EReal} {W2 : Fin H → Fin C → EReal} (b2 : Fin C → EReal)
    (E : Fin N → Finset (Fin R)) (src : Fin R → Fin N) (hh : ∀ n k, IsFin (h n k)) (hW : ∀ k c, IsFin (W2 k c)) :
    logitsProjFirst h W2 b2 E src = logitsAggFirst h W2 b2 E src := by
  funext i c
  unfold logitsProjFirst logitsAggFirst
  congr 1
  rw [Finset.sum_comm]
  exact Finset.sum_congr rfl fun k _ =>
    (sum_mul_of_fin (E i) (fun e => h (src e) k) (W2 k c) (fun e => hh _ _) (hW k c)).symm

/-- A row's maximum, as the fold of max from −∞. -/
def rowMax (L : Fin N → Fin C → EReal) (i : Fin N) : EReal :=
  (Finset.univ : Finset (Fin C)).fold max ⊥ (fun c => L i c)

/-- The log-softmax of each row: (L − m) − log Σ exp (L − m), m the row's maximum. -/
def logSoftmax (L : Fin N → Fin C → EReal) (i : Fin N) (c : Fin C) : EReal :=
  (L i c - rowMax L i) - Ideal.log (∑ c', Ideal.exp (L i c' - rowMax L i))

end Cert.GraphConv

end
-- ==== Proof.KernelBlocks.lean ====
/-
  From row blocks to whole arrays, for the two launches of the idealized kernel.

  Both launches run over a grid of 10 points; at point t every row-tiled window holds rows 5000 t … 5000 t + 4999 of its
  array and every other window (the weights, the biases) its whole array. The first launch's body computes, for each row
  of its block, relu (x · W1 + b1) · W2: row r of block t depends on row 5000 t + r of x only, so the 10 written-back
  blocks are the 10 row blocks of ONE array, `proj0` of the operands, and they cover it. The second launch's body is a
  row-wise log-softmax of (aggregate + b2): again a row of the block is a function of the same row of the operand, and
  the blocks are the row blocks of `lsm1` of the operands.
-/
import proofs.«181841_j79379585564874_2_alg».proof.Proof.Gen.KernelIdeal.Frame
import proofs.«181841_j79379585564874_2_alg».proof.Proof.GraphConvLaw
import Idealize.ShloMosaic.Lib.Pipeline.Value
import Idealize.ShloMosaic.Lib.ValueIdx

set_option maxRecDepth 16384

noncomputable section

open scoped BigOperators

namespace Cert.KernelSide

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A row's log-softmax depends on that row alone: two matrices (of any heights) that agree on a row of each have the
    same log-softmax along it. -/
theorem logSoftmax_row {N N' C : ℕ} (L : Fin N → Fin C → EReal) (L' : Fin N' → Fin C → EReal) (r : Fin N) (r' : Fin N')
    (h : ∀ c, L r c = L' r' c) (c : Fin C) : Cert.GraphConv.logSoftmax L r c = Cert.GraphConv.logSoftmax L' r' c := by
  have e : (fun c => L r c) = fun c => L' r' c := funext h
  unfold Cert.GraphConv.logSoftmax Cert.GraphConv.rowMax
  rw [e]
  simp only [h]

theorem hz : (![0, 0] : Fin 2 → Nat) = fun _ => 0 := funext fun a => by fin_cases a <;> rfl

variable (V : (c : Dev nD) → (b : Ref sig .tc) → Buf (Elt Ideal) ((c : Thread nD τ).loc b))

/-! ## The first launch -/

/-- relu (A0 · A1 + A2) · A3, entry by entry (A2 a one-row matrix, added to every row). -/
def proj0 (A0 : S50000x128.Idx → EReal) (A1 : S128x128.Idx → EReal) (A2 : S1x128.Idx → EReal) (A3 : S128x64.Idx → EReal) :
    S50000x64.Idx → EReal :=
  fun i => ∑ k : Fin 128, max (∑ l : Fin 128, A0 (ix2 (i 0) l) * A1 (ix2 l k) + A2 (ix2 (0 : Fin 1) k)) 0 * A3 (ix2 k (i 1))

/-- The block indices of the first launch's windows at a point: the row-tiled windows sit at block row t, the others at
    their only block. -/
theorem idx_facts0 : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every block row is some point's. -/
theorem idx_onto0 : ∀ q0 : Fin 10, ∃ t : Fin cfg0.N, win0_4.index t = ![q0.val, 0] :=
  (by decide +kernel : ∀ q0 : Fin 10, ∃ t : Fin grid0.N, win0_4.index t = ![q0.val, 0])

/-- What point t writes back is block t of `proj0` of the arrays as the launch finds them, given the body's value
    at an entry of its block. -/
theorem flushed0_eq
    (hpay : ∀ (x0 : Vec Ideal S5000x128 .f32) (x1 : Vec Ideal S128x128 .f32) (x2 : Vec Ideal S1x128 .f32)
      (x3 : Vec Ideal S128x64 .f32) (r : Fin 5000) (c : Fin 64),
      k0_pay1 x0 x1 x2 x3 (ix2 r c)
        = ∑ k : Fin 128, max (∑ l : Fin 128, x0 (ix2 r l) * x1 (ix2 l k) + x2 (ix2 (0 : Fin 1) k)) 0 * x3 (ix2 k c))
    (c : Dev nD) (t : Fin cfg0.N) :
    (dat0 V c).flushed 4 t
      = ((cfg0.win 4).blk t).view.read (Elt Ideal) (proj0 (V c main_arg0) (V c main_arg1) (V c main_v0) (V c main_arg3)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz,
    View.ld_unit_zero (S := S1x128) hz, View.ld_unit_zero (S := S128x64) hz]
  obtain ⟨e0, e1, e2, e3, e4, e5, e6, e7, e8, e9⟩ := idx_facts0 t
  funext j
  obtain ⟨r, q, rfl⟩ : ∃ (r : Fin 5000) (q : Fin 64), j = ix2 r q := ⟨j 0, j 1, eq_ix2 j⟩
  refine (hpay (iblk0 V c 0 t) (iblk0 V c 1 t) (iblk0 V c 2 t) (iblk0 V c 3 t) r q).trans ?_
  have h0 : ∀ l : Fin 128, ((cfg0.win 0).blk t).view.emb (ix2 r l)
      = ix2 ((((cfg0.win 4).blk t).view.emb (ix2 r q)) 0) l := by
    intro l; funext a; apply Fin.ext
    match a with
    | ⟨0, _⟩ => show win0_0.index t (0 : Fin 2) * 5000 + 1 * r.val = win0_4.index t (0 : Fin 2) * 5000 + 1 * r.val; omega
    | ⟨1, _⟩ => show win0_0.index t (1 : Fin 2) * 128 + 1 * l.val = l.val; omega
  have h1 : ∀ (l k : Fin 128), ((cfg0.win 1).blk t).view.emb (ix2 l k) = ix2 l k := by
    intro l k; funext a; apply Fin.ext
    match a with
    | ⟨0, _⟩ => show win0_1.index t (0 : Fin 2) * 128 + 1 * l.val = l.val; omega
    | ⟨1, _⟩ => show win0_1.index t (1 : Fin 2) * 128 + 1 * k.val = k.val; omega
  have h2 : ∀ k : Fin 128, ((cfg0.win 2).blk t).view.emb (ix2 (0 : Fin 1) k) = ix2 (0 : Fin 1) k := by
    intro k; funext a; apply Fin.ext
    match a with
    | ⟨0, _⟩ => show win0_2.index t (0 : Fin 2) * 1 + 1 * 0 = 0; omega
    | ⟨1, _⟩ => show win0_2.index t (1 : Fin 2) * 128 + 1 * k.val = k.val; omega
  have h3 : ∀ k : Fin 128, ((cfg0.win 3).blk t).view.emb (ix2 k q)
      = ix2 k ((((cfg0.win 4).blk t).view.emb (ix2 r q)) 1) := by
    intro k; funext a; apply Fin.ext
    match a with
    | ⟨0, _⟩ => show win0_3.index t (0 : Fin 2) * 128 + 1 * k.val = k.val; omega
    | ⟨1, _⟩ => show win0_3.index t (1 : Fin 2) * 64 + 1 * q.val = win0_4.index t (1 : Fin 2) * 64 + 1 * q.val; omega
  show _ = proj0 (V c main_arg0) (V c main_arg1) (V c main_v0) (V c main_arg3) (((cfg0.win 4).blk t).view.emb (ix2 r q))
  unfold proj0
  have g0 : ∀ l : Fin 128, (iblk0 V c 0 t : S5000x128.Idx → EReal) (ix2 r l)
      = (V c main_arg0 : S50000x128.Idx → EReal) (ix2 ((((cfg0.win 4).blk t).view.emb (ix2 r q)) 0) l) :=
    fun l => congrArg (V c main_arg0 : S50000x128.Idx → EReal) (h0 l)
  have g1 : ∀ l k : Fin 128, (iblk0 V c 1 t : S128x128.Idx → EReal) (ix2 l k)
      = (V c main_arg1 : S128x128.Idx → EReal) (ix2 l k) :=
    fun l k => congrArg (V c main_arg1 : S128x128.Idx → EReal) (h1 l k)
  have g2 : ∀ k : Fin 128, (iblk0 V c 2 t : S1x128.Idx → EReal) (ix2 (0 : Fin 1) k)
      = (V c main_v0 : S1x128.Idx → EReal) (ix2 (0 : Fin 1) k) :=
    fun k => congrArg (V c main_v0 : S1x128.Idx → EReal) (h2 k)
  have g3 : ∀ k : Fin 128, (iblk0 V c 3 t : S128x64.Idx → EReal) (ix2 k q)
      = (V c main_arg3 : S128x64.Idx → EReal) (ix2 k ((((cfg0.win 4).blk t).view.emb (ix2 r q)) 1)) :=
    fun k => congrArg (V c main_arg3 : S128x64.Idx → EReal) (h3 k)
  simp only [g0, g1, g2, g3]

/-- An index of the first launch's output is in point t's block iff each coordinate is in the block's range. -/
theorem mem_blk0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v1).slice (win0_4.rect t)).set ↔ _
  rw [View.set_slice_whole, Rect.mem_set_unit]
  exact Iff.rfl

/-- The 10 row blocks cover the output. -/
theorem cover0 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- After the first launch its output array is `proj0` of the arrays it found. -/
theorem final0
    (hpay : ∀ (x0 : Vec Ideal S5000x128 .f32) (x1 : Vec Ideal S128x128 .f32) (x2 : Vec Ideal S1x128 .f32)
      (x3 : Vec Ideal S128x64 .f32) (r : Fin 5000) (c : Fin 64),
      k0_pay1 x0 x1 x2 x3 (ix2 r c)
        = ∑ k : Fin 128, max (∑ l : Fin 128, x0 (ix2 r l) * x1 (ix2 l k) + x2 (ix2 (0 : Fin 1) k)) 0 * x3 (ix2 k c))
    (c : Dev nD) :
    (dat0 V c).arrAt 4 cfg0.N = proj0 (V c main_arg0) (V c main_arg1) (V c main_v0) (V c main_arg3) :=
  (dat0 V c).arrAt_eq_of_cover 4 _ (fun t _ => flushed0_eq V hpay c t) cover0

/-! ## The second launch -/

/-- The row-wise log-softmax of A + B (B a one-row matrix, added to every row), entry by entry. -/
def lsm1 (A : S50000x64.Idx → EReal) (B : S1x64.Idx → EReal) : S50000x64.Idx → EReal :=
  fun i => Cert.GraphConv.logSoftmax (fun (p : Fin 50000) (q : Fin 64) => A (ix2 p q) + B (ix2 (0 : Fin 1) q)) (i 0) (i 1)

theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

theorem idx_onto1 : ∀ q0 : Fin 10, ∃ t : Fin cfg1.N, win1_2.index t = ![q0.val, 0] :=
  (by decide +kernel : ∀ q0 : Fin 10, ∃ t : Fin grid1.N, win1_2.index t = ![q0.val, 0])

/-- What point t of the second launch writes back is block t of `lsm1` of the arrays as the launch finds them. -/
theorem flushed1_eq
    (hpay : ∀ (v0 : Vec Ideal S5000x64 .f32) (v2 : Vec Ideal S1x64 .f32) (r : Fin 5000) (c : Fin 64),
      k1_pay1 v0 v2 (ix2 r c)
        = Cert.GraphConv.logSoftmax (fun (p : Fin 5000) (q : Fin 64) => v0 (ix2 p q) + v2 (ix2 (0 : Fin 1) q)) r c)
    (c : Dev nD) (t : Fin cfg1.N) :
    (dat1 V c).flushed 2 t = ((cfg1.win 2).blk t).view.read (Elt Ideal) (lsm1 (V c main_v12) (V c main_v13)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx_facts1 t
  funext j
  obtain ⟨r, q, rfl⟩ : ∃ (r : Fin 5000) (q : Fin 64), j = ix2 r q := ⟨j 0, j 1, eq_ix2 j⟩
  refine (hpay (iblk1 V c 0 t) (iblk1 V c 1 t) r q).trans ?_
  have h0 : ∀ q' : Fin 64, ((cfg1.win 0).blk t).view.emb (ix2 r q')
      = ix2 ((((cfg1.win 2).blk t).view.emb (ix2 r q)) 0) q' := by
    intro q'; funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 64 + 1 * q'.val = q'.val; omega
  have h1 : ∀ q' : Fin 64, ((cfg1.win 1).blk t).view.emb (ix2 (0 : Fin 1) q') = ix2 (0 : Fin 1) q' := by
    intro q'; funext a; apply Fin.ext
    match a with
    | ⟨0, _⟩ => show win1_1.index t (0 : Fin 2) * 1 + 1 * 0 = 0; omega
    | ⟨1, _⟩ => show win1_1.index t (1 : Fin 2) * 64 + 1 * q'.val = q'.val; omega
  have hq : q = (((cfg1.win 2).blk t).view.emb (ix2 r q)) 1 := by
    apply Fin.ext
    show q.val = win1_2.index t (1 : Fin 2) * 64 + 1 * q.val
    omega
  show _ = lsm1 (V c main_v12) (V c main_v13) (((cfg1.win 2).blk t).view.emb (ix2 r q))
  unfold lsm1
  rw [← hq]
  refine logSoftmax_row _ _ r _ (fun q' => ?_) q
  have g0 : (iblk1 V c 0 t : S5000x64.Idx → EReal) (ix2 r q')
      = (V c main_v12 : S50000x64.Idx → EReal) (ix2 ((((cfg1.win 2).blk t).view.emb (ix2 r q)) 0) q') :=
    congrArg (V c main_v12 : S50000x64.Idx → EReal) (h0 q')
  have g1 : (iblk1 V c 1 t : S1x64.Idx → EReal) (ix2 (0 : Fin 1) q')
      = (V c main_v13 : S1x64.Idx → EReal) (ix2 (0 : Fin 1) q') :=
    congrArg (V c main_v13 : S1x64.Idx → EReal) (h1 q')
  exact congrArg₂ (· + ·) g0 g1

theorem mem_blk1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v14).slice (win1_2.rect t)).set ↔ _
  rw [View.set_slice_whole, Rect.mem_set_unit]
  exact Iff.rfl

theorem cover1 (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the second launch its output array is `lsm1` of the arrays it found. -/
theorem final1
    (hpay : ∀ (v0 : Vec Ideal S5000x64 .f32) (v2 : Vec Ideal S1x64 .f32) (r : Fin 5000) (c : Fin 64),
      k1_pay1 v0 v2 (ix2 r c)
        = Cert.GraphConv.logSoftmax (fun (p : Fin 5000) (q : Fin 64) => v0 (ix2 p q) + v2 (ix2 (0 : Fin 1) q)) r c)
    (c : Dev nD) :
    (dat1 V c).arrAt 2 cfg1.N = lsm1 (V c main_v12) (V c main_v13) :=
  (dat1 V c).arrAt_eq_of_cover 2 _ (fun t _ => flushed1_eq V hpay c t) cover1

end Cert.KernelSide

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.GraphConvOut.lean ====
/-
  The graph convolution's result as one function of the seven argument arrays, in both arrangements.

  The edge list is two arrays of 800000 signed 32-bit integers. An edge's source node is its source index with a
  negative index counted from the end (50000 is added to it), read signed and clamped into [0, 49999]; an edge ends at
  node i when its destination index, read signed, is i (an edge whose destination index names no node ends nowhere).
  With these two readings of the edge list the result at (i, c) is the log-softmax of node i's logits in either
  arrangement, and the two arrangements agree when the float inputs x, W1, b1, W2 hold real numbers.
-/
import proofs.«181841_j79379585564874_2_alg».proof.Proof.LibGatherRows
import proofs.«181841_j79379585564874_2_alg».proof.Proof.LibScatterRows
import proofs.«181841_j79379585564874_2_alg».proof.Proof.GraphConvLaw

noncomputable section

namespace Cert.GraphConv

open Idealize.ShloMosaic Idealize.ShloMosaic.ValueIdx Cert.LibFinite

/-- The shape of an edge array, of the same array as a column, and the scalar shape. -/
abbrev SE : Shape := ⟨1, ![800000]⟩
abbrev SE1 : Shape := ⟨2, ![800000, 1]⟩
abbrev S0 : Shape := ⟨0, ![]⟩

theorem bE : S0.BroadcastsInDim SE (![] : Fin 0 → Fin SE.rank) := by decide
theorem bE1 : SE.BroadcastsInDim SE1 (![0] : Fin 1 → Fin SE1.rank) := by decide

/-- The source indices as a column, a negative index counted from the end. -/
def srcIdx (a5 : IVec SE 32) : IVec SE1 32 :=
  broadcastInDim SE1 ![0] bE1
    (select (cmpi .slt a5 (broadcastInDim SE ![] bE (constantI S0 32 0#32)))
      (addi a5 (broadcastInDim SE ![] bE (constantI S0 32 50000#32))) a5)

/-- The destination indices as a column. -/
def dstIdx (a6 : IVec SE 32) : IVec SE1 32 := broadcastInDim SE1 ![0] bE1 a6

/-- The source node of each edge. -/
def srcRow (a5 : IVec SE 32) : Fin 800000 → Fin 50000 :=
  GatherRows.rowOf (N := 50000) (by decide) (srcIdx a5)

/-- The edges that end at each node. -/
def dstSet (a6 : IVec SE 32) : Fin 50000 → Finset (Fin 800000) :=
  fun i => ScatterRows.hits (N := 50000) (dstIdx a6) i

/-- A matrix and a vector read by coordinates. -/
def cur2 {a b : ℕ} (X : (⟨2, ![a, b]⟩ : Shape).Idx → EReal) : Fin a → Fin b → EReal := fun p q => X (ix2 p q)
def cur1 {a : ℕ} (X : (⟨1, ![a]⟩ : Shape).Idx → EReal) : Fin a → EReal := fun p => X (ix1 p)

/-- The result when every hidden row is projected by W2 before the aggregation. -/
def outProjFirst (x : (⟨2, ![50000, 128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (a5 a6 : IVec SE 32) : (⟨2, ![50000, 64]⟩ : Shape).Idx → EReal :=
  fun j => logSoftmax (logitsProjFirst (hid (cur2 x) (cur2 W1) (cur1 b1)) (cur2 W2) (cur1 b2) (dstSet a6) (srcRow a5)) (j 0) (j 1)

/-- The result when the hidden rows are aggregated before the projection by W2. -/
def outAggFirst (x : (⟨2, ![50000, 128]⟩ : Shape).Idx → EReal) (W1 : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (a5 a6 : IVec SE 32) : (⟨2, ![50000, 64]⟩ : Shape).Idx → EReal :=
  fun j => logSoftmax (logitsAggFirst (hid (cur2 x) (cur2 W1) (cur1 b1)) (cur2 W2) (cur1 b2) (dstSet a6) (srcRow a5)) (j 0) (j 1)

/-- With real x, W1, b1, W2 the two arrangements give the same result. -/
theorem out_eq {x : (⟨2, ![50000, 128]⟩ : Shape).Idx → EReal} {W1 : (⟨2, ![128, 128]⟩ : Shape).Idx → EReal}
    {b1 : (⟨1, ![128]⟩ : Shape).Idx → EReal} {W2 : (⟨2, ![128, 64]⟩ : Shape).Idx → EReal}
    (b2 : (⟨1, ![64]⟩ : Shape).Idx → EReal) (a5 a6 : IVec SE 32)
    (hx : ∀ i, IsFin (x i)) (hW1 : ∀ i, IsFin (W1 i)) (hb1 : ∀ i, IsFin (b1 i)) (hW2 : ∀ i, IsFin (W2 i)) :
    outProjFirst x W1 b1 W2 b2 a5 a6 = outAggFirst x W1 b1 W2 b2 a5 a6 := by
  have h := logits_eq (h := hid (cur2 x) (cur2 W1) (cur1 b1)) (W2 := cur2 W2) (cur1 b2) (dstSet a6) (srcRow a5)
    (hid_fin (fun n l => hx _) (fun l k => hW1 _) (fun k => hb1 _)) (fun k c => hW2 _)
  exact congrArg (fun L => fun j : (⟨2, ![50000, 64]⟩ : Shape).Idx => logSoftmax L (j 0) (j 1)) h

end Cert.GraphConv

end
-- ==== Proof.KernelValue.lean ====
/-
  The idealized kernel's returned array as one function of the seven arguments.

  Walking the four stretches back from the end: the returned array is the row-wise log-softmax of (aggregate + b2); the
  aggregate is the accumulating row scatter, into zeros and by the edges' destinations, of the rows gathered by the
  edges' sources from the first launch's output; that output is relu (x · W1 + b1) · W2 of the arguments (the reshape of
  b1 to one row reads b1 itself). Put together, entry (i, c) is the log-softmax along row i of
      Σ_{e ends at i} Σ_k hid (src e, k) · W2 (k, c) + b2 c,
  the arrangement that projects by W2 before aggregating.
-/
import proofs.«181841_j79379585564874_2_alg».proof.Proof.KernelRun
import proofs.«181841_j79379585564874_2_alg».proof.Proof.KernelBlocks
import proofs.«181841_j79379585564874_2_alg».proof.Proof.GraphConvOut
import Idealize.ShloMosaic.Lib.StableHlo.Run

set_option maxRecDepth 16384

noncomputable section

open scoped BigOperators

namespace Cert.KernelSide

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.StableHlo (after_cons after_nil)

variable (m : (ℓ : Loc nD τ sig) → Buf (Elt Ideal) ℓ) (ρ : Dev nD → PrngReg)

/-! ## The first launch's operands: the arguments as launched, and b1 as one row -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg3 (c : Dev nD) : V1 m ρ c main_arg3 = m ((c : Thread nD τ).loc main_arg3) := by
  show StableHlo.after hostOps0 (W0 m ρ c) (Proc.devRef .tc main_arg3) = _
  after_results
theorem V1_v0 (c : Dev nD) : (V1 m ρ c main_v0 : S1x128.Idx → EReal)
    = shapeCast S1x128 (m ((c : Thread nD τ).loc main_arg2) : S128.Idx → EReal) shapeCasts_S128_S1x128 := by
  show StableHlo.after hostOps0 (W0 m ρ c) (Proc.devRef .tc main_v0) = _
  after_results
  rfl

/-- A vector cast to one row reads, at (0, k), the vector at k. -/
theorem shapeCast_a_1a_apply {α : Type} {a : ℕ} (x : (⟨1, ![a]⟩ : Shape).Idx → α)
    (h : (⟨1, ![a]⟩ : Shape).ShapeCasts ⟨2, ![1, a]⟩) (k : Fin a) :
    shapeCast ⟨2, ![1, a]⟩ x h (ix2 (0 : Fin 1) k) = x (ix1 k) :=
  shapeCast_apply x h _ _ (by
    rw [Shape.rowMajor_val_one, Shape.rowMajor_val_two]
    show k.val = 0 * a + k.val
    omega)

/-! ## Between the launches -/

theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-- The body's value at an entry of its block, for the first launch (supplied by the module on the bodies). -/
abbrev Pay0 : Prop := ∀ (x0 : Vec Ideal S5000x128 .f32) (x1 : Vec Ideal S128x128 .f32) (x2 : Vec Ideal S1x128 .f32)
    (x3 : Vec Ideal S128x64 .f32) (r : Fin 5000) (c : Fin 64),
    k0_pay1 x0 x1 x2 x3 (ix2 r c)
      = ∑ k : Fin 128, max (∑ l : Fin 128, x0 (ix2 r l) * x1 (ix2 l k) + x2 (ix2 (0 : Fin 1) k)) 0 * x3 (ix2 k c)

/-- The same for the second launch. -/
abbrev Pay1 : Prop := ∀ (v0 : Vec Ideal S5000x64 .f32) (v2 : Vec Ideal S1x64 .f32) (r : Fin 5000) (c : Fin 64),
    k1_pay1 v0 v2 (ix2 r c)
      = Cert.GraphConv.logSoftmax (fun (p : Fin 5000) (q : Fin 64) => v0 (ix2 p q) + v2 (ix2 (0 : Fin 1) q)) r c

/-- The first launch's output, between the launches: relu (x · W1 + b1) · W2 of the arguments. -/
theorem W2_v1 (hpay0 : Pay0) (c : Dev nD) :
    (W2 m ρ c (Proc.devRef .tc main_v1) : S50000x64.Idx → EReal)
      = proj0 (m ((c : Thread nD τ).loc main_arg0)) (m ((c : Thread nD τ).loc main_arg1))
          (shapeCast S1x128 (m ((c : Thread nD τ).loc main_arg2) : S128.Idx → EReal) shapeCasts_S128_S1x128)
          (m ((c : Thread nD τ).loc main_arg3)) := by
  refine (W2_arr m ρ c 4).trans ?_
  rw [final0 (V1 m ρ) hpay0 c, V1_arg0, V1_arg1, V1_arg3, V1_v0]

/-! ## The second launch's operands -/

/-- b2 as one row. -/
theorem V3_v13 (c : Dev nD) : (V3 m ρ c main_v13 : S1x64.Idx → EReal)
    = shapeCast S1x64 (m ((c : Thread nD τ).loc main_arg4) : S64.Idx → EReal) shapeCasts_S64_S1x64 := by
  show StableHlo.after hostOps1 (W2 m ρ c) (Proc.devRef .tc main_v13) = _
  after_results
  rw [W2_arg4]
  rfl

/-- The aggregate: the accumulating row scatter of the gathered rows of the first launch's output. -/
theorem V3_v12 (c : Dev nD) : (V3 m ρ c main_v12 : S50000x64.Idx → EReal)
    = Host.scatterAdd (F := Ideal) scatter_S50000x64_S800000x1_S800000x64_1_0_0_1
        (broadcastInDim S50000x64 ![] bcast_S_S50000x64 (constant (F := Ideal) S_ .f32 0x00000000#32))
        (Cert.GraphConv.dstIdx (m ((c : Thread nD τ).loc main_arg6)))
        (extf (F := Ideal) .f32
          (Host.gather gather_S50000x64_S800000x1_S800000x64_1_0_n_n_0_1_164
            (W2 m ρ c (Proc.devRef .tc main_v1) : S50000x64.Idx → EReal)
            (Cert.GraphConv.srcIdx (m ((c : Thread nD τ).loc main_arg5))))
          bitsLt_bf16_f32) := by
  show StableHlo.after hostOps1 (W2 m ρ c) (Proc.devRef .tc main_v12) = _
  after_results
  rw [W2_arg5, W2_arg6]
  rfl

/-- The accumulating row scatter of this program at an entry. -/
theorem scat_entry (Z : FVec Ideal S50000x64 .f32) (idx : IVec S800000x1 32) (U : FVec Ideal S800000x64 .f32) (p : Fin 50000) (q : Fin 64) :
    Host.scatterAdd (F := Ideal) (φ := .f32) scatter_S50000x64_S800000x1_S800000x64_1_0_0_1 Z idx U (ix2 p q)
      = Z (ix2 p q) + ∑ e ∈ ScatterRows.hits (N := 50000) idx p, U (ix2 e q) :=
  ScatterRows.scatterAdd_rows_apply (N := 50000) (R := 800000) (C := 64)
    scatter_S50000x64_S800000x1_S800000x64_1_0_0_1.wf Z idx U p q

/-- The row gather of this program at an entry. -/
theorem gath_entry (H : S50000x64.Idx → EReal) (idx : IVec S800000x1 32) (e : Fin 800000) (q : Fin 64) :
    Host.gather gather_S50000x64_S800000x1_S800000x64_1_0_n_n_0_1_164 H idx (ix2 e q)
      = H (ix2 (GatherRows.rowOf (N := 50000) (by decide) idx e) q) :=
  GatherRows.gather_rows_apply (N := 50000) (R := 800000) (C := 64) (by decide)
    gather_S50000x64_S800000x1_S800000x64_1_0_n_n_0_1_164.wf H idx e q

/-- The edges that end at a node, and an edge's source, by their definitions. -/
theorem dstSet_eq (a6 : IVec Cert.GraphConv.SE 32) (p : Fin 50000) :
    Cert.GraphConv.dstSet a6 p = ScatterRows.hits (N := 50000) (Cert.GraphConv.dstIdx a6) p := rfl
theorem srcRow_eq (a5 : IVec Cert.GraphConv.SE 32) (e : Fin 800000) :
    Cert.GraphConv.srcRow a5 e = GatherRows.rowOf (N := 50000) (by decide) (Cert.GraphConv.srcIdx a5) e := rfl

/-- A row of relu (A0 · A1 + b) · A3 is the hidden row projected by A3. -/
theorem proj0_apply (A0 : S50000x128.Idx → EReal) (A1 : S128x128.Idx → EReal) (b : S128.Idx → EReal)
    (A3 : S128x64.Idx → EReal) (n : Fin 50000) (q : Fin 64) :
    proj0 A0 A1 (shapeCast S1x128 b shapeCasts_S128_S1x128) A3 (ix2 n q)
      = ∑ k : Fin 128, Cert.GraphConv.hid (Cert.GraphConv.cur2 A0) (Cert.GraphConv.cur2 A1) (Cert.GraphConv.cur1 b) n k
          * Cert.GraphConv.cur2 A3 k q := by
  unfold proj0 Cert.GraphConv.hid Cert.GraphConv.cur2 Cert.GraphConv.cur1
  refine Finset.sum_congr rfl fun k _ => ?_
  rw [shapeCast_a_1a_apply]

/-- The broadcast zero word is 0 at every entry. -/
theorem zeros_apply (i : S50000x64.Idx) :
    (broadcastInDim S50000x64 ![] bcast_S_S50000x64 (constant (F := Ideal) S_ .f32 0x00000000#32)) i = 0 := by
  refine (broadcastInDim_apply _ bcast_S_S50000x64 _ i ix0 (fun a => a.elim0)).trans ?_
  exact Ideal.ofBits_zero_f32

/-- The second launch's two operands, as arrays of extended reals. -/
def aggArr (c : Dev nD) : S50000x64.Idx → EReal := V3 m ρ c main_v12
def biasRow (c : Dev nD) : S1x64.Idx → EReal := V3 m ρ c main_v13

/-- The aggregate at an entry: over the edges that end at node p, the projected hidden row of the edge's source. -/
theorem agg_apply (hpay0 : Pay0) (c : Dev nD) (p : Fin 50000) (q : Fin 64) :
    aggArr m ρ c (ix2 p q)
      = ∑ e ∈ Cert.GraphConv.dstSet (m ((c : Thread nD τ).loc main_arg6)) p, ∑ k : Fin 128,
          Cert.GraphConv.hid (Cert.GraphConv.cur2 (m ((c : Thread nD τ).loc main_arg0)))
              (Cert.GraphConv.cur2 (m ((c : Thread nD τ).loc main_arg1)))
              (Cert.GraphConv.cur1 (m ((c : Thread nD τ).loc main_arg2)))
              (Cert.GraphConv.srcRow (m ((c : Thread nD τ).loc main_arg5)) e) k
            * Cert.GraphConv.cur2 (m ((c : Thread nD τ).loc main_arg3)) k q := by
  unfold aggArr
  rw [V3_v12, scat_entry, zeros_apply, zero_add, dstSet_eq]
  refine Finset.sum_congr rfl fun e _ => ?_
  rw [extf_apply, gath_entry, ← srcRow_eq, W2_v1 m ρ hpay0 c, proj0_apply]

/-- Node p's logits, the projecting-first arrangement: the aggregate plus b2. -/
theorem logits_apply (hpay0 : Pay0) (c : Dev nD) (p : Fin 50000) (q : Fin 64) :
    aggArr m ρ c (ix2 p q) + biasRow m ρ c (ix2 (0 : Fin 1) q)
      = Cert.GraphConv.logitsProjFirst
        (Cert.GraphConv.hid (Cert.GraphConv.cur2 (m ((c : Thread nD τ).loc main_arg0)))
          (Cert.GraphConv.cur2 (m ((c : Thread nD τ).loc main_arg1)))
          (Cert.GraphConv.cur1 (m ((c : Thread nD τ).loc main_arg2))))
        (Cert.GraphConv.cur2 (m ((c : Thread nD τ).loc main_arg3)))
        (Cert.GraphConv.cur1 (m ((c : Thread nD τ).loc main_arg4)))
        (Cert.GraphConv.dstSet (m ((c : Thread nD τ).loc main_arg6)))
        (Cert.GraphConv.srcRow (m ((c : Thread nD τ).loc main_arg5))) p q := by
  rw [agg_apply m ρ hpay0 c p q]
  unfold biasRow
  rw [V3_v13, shapeCast_a_1a_apply]
  rfl

/-- The returned array is the projecting-first arrangement's result of the arguments. -/
theorem result_eq (hpay0 : Pay0) (hpay1 : Pay1) (c : Dev nD) :
    (W4 m ρ c (Proc.devRef .tc main_v14) : S50000x64.Idx → EReal)
      = Cert.GraphConv.outProjFirst (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (W4_arr m ρ c 2).trans ?_
  rw [final1 (V3 m ρ) hpay1 c]
  show lsm1 (aggArr m ρ c) (biasRow m ρ c) = _
  unfold lsm1 Cert.GraphConv.outProjFirst
  funext j
  exact congrArg (fun L : Fin 50000 → Fin 64 → EReal => Cert.GraphConv.logSoftmax L (j 0) (j 1))
    (funext fun p => funext fun q => logits_apply m ρ hpay0 c p q)

/-- Every weakly fair execution of the idealized kernel terminates with the returned array at the projecting-first
    arrangement's result of the arguments, and the arguments as launched. -/
theorem run (hpay0 : Pay0) (hpay1 : Pay1) :
    θ_run defs (onTc (τ := τ) (main (F := Ideal))) ⟨m, fun _ => 0, ρ⟩ (fun r => ∀ c : Dev nD,
      r.2.mem ((c.tc : Thread nD τ).loc main_v14)
        = Cert.GraphConv.outProjFirst (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ hpay0 hpay1 c), (h c).2⟩) (run_folded m ρ)

end Cert.KernelSide

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KernelBodies.lean ====
/-
  The two kernel bodies read at one entry, over the extended reals.

  The first body takes a block of node features x0, the weights x1 and the bias row x2 of the first layer and the
  weights x3 of the second, and stores, at node r and class c,
      Σ_k relu (Σ_l x0 (r, l) · x1 (l, k) + x2 (0, k)) · x3 (k, c):
  the hidden row of r projected by x3. The second body takes aggregated projected rows v0 and the bias row v2 and
  stores the log-softmax of each row of v0 + v2: with L (p, q) = v0 (p, q) + v2 (0, q) and m (p) the maximum of row p,
      (L (r, c) − m (r)) − log Σ_q exp (L (r, q) − m (r)).
  Every change of float format is the identity here, so the statements hold for the stored values as extended reals.
-/
import proofs.«181841_j79379585564874_2_alg».proof.Proof.Gen.KernelIdeal.Skeleton
import proofs.«181841_j79379585564874_2_alg».proof.Proof.LibMatmulPlain
import proofs.«181841_j79379585564874_2_alg».proof.Proof.LibRowReduce
import proofs.«181841_j79379585564874_2_alg».proof.Proof.LibKeepdims
import proofs.«181841_j79379585564874_2_alg».proof.Proof.GraphConvLaw
import Idealize.ShloMosaic.Lib.ValueLayout

noncomputable section

open scoped BigOperators

namespace Cert.KernelBodies

open Cert.KernelIdeal Cert.KernelIdeal.Gen Idealize.ShloMosaic Idealize.ShloMosaic.ValueIdx

/-- The first body's stored value at row r, class c: the hidden row of r, relu (x0 · x1 + x2), times column c of x3.
    Both matrix products run into zero accumulators, the changes of float format are the identity on extended
    reals, the bias row is broadcast down the rows, and the maximum against the zero word is relu. -/
theorem pay0_apply (x0 : Vec Ideal S5000x128 .f32) (x1 : Vec Ideal S128x128 .f32) (x2 : Vec Ideal S1x128 .f32)
    (x3 : Vec Ideal S128x64 .f32) (r : Fin 5000) (c : Fin 64) :
    k0_pay1 x0 x1 x2 x3 (ix2 r c)
      = ∑ k : Fin 128, max (∑ l : Fin 128, x0 (ix2 r l) * x1 (ix2 l k) + x2 (ix2 (0 : Fin 1) k)) 0 * x3 (ix2 k c) := by
  unfold k0_pay1
  refine (MatmulPlain.matmul_zero_apply (M := 5000) (K := 128) (N := 64) none _ _ (ix2 r c)).trans ?_
  refine Finset.sum_congr rfl fun k _ => ?_
  refine congrArg₂ (· * ·) ?_ rfl
  refine congrArg₂ max (congrArg₂ (· + ·) ?_ ?_) Ideal.ofBits_zero_f32
  · exact MatmulPlain.matmul_zero_apply (M := 5000) (K := 128) (N := 128) none _ _ (ix2 r k)
  · rw [shapeCast_self]
    exact broadcastTo_1b_ab_apply x2 _ r k

/-- The f32 word 0xFF800000 is −∞. -/
theorem word_neg_inf : Ideal.ofBits .f32 0xFF800000#32 = ⊥ := by simp [Ideal.ofBits, Ideal.ieee]

/-- The row maxima kept as a column and broadcast back across the lanes: at (p, q), the maximum of row p from −∞. -/
theorem rowMax_keep (w : FVec Ideal S5000x64 .f32) (p : Fin 5000) (q : Fin 64) :
    broadcastTo S5000x64 (shapeCast S5000x1 (multiReduction (F := Ideal) .maximumf [1] S5000 w 0xFF800000#32
        reduces_S5000x64_S5000 (.inl rfl) rfl) shapeCasts_S5000_S5000x1) broadcasts_S5000x1_S5000x64 (ix2 p q)
      = Cert.GraphConv.rowMax (fun a b => w (ix2 a b)) p := by
  rw [Keepdims.broadcastTo_a1_ab_apply, Keepdims.shapeCast_a_a1_apply]
  refine (RowReduce.rowMax_apply w 0xFF800000#32 reduces_S5000x64_S5000 (.inl rfl) rfl p).trans ?_
  rw [word_neg_inf]
  rfl

/-- The logarithm of the row sums kept as a column and broadcast back: at (p, q), log Σ_k w (p, k). -/
theorem rowLogSum_keep (w : FVec Ideal S5000x64 .f32) (p : Fin 5000) (q : Fin 64) :
    broadcastTo S5000x64 (log (shapeCast S5000x1 (multiReduction (F := Ideal) .add [1] S5000 w 0x00000000#32
        reduces_S5000x64_S5000 (.inl rfl) rfl) shapeCasts_S5000_S5000x1)) broadcasts_S5000x1_S5000x64 (ix2 p q)
      = Ideal.log (∑ k : Fin 64, w (ix2 p k)) := by
  rw [Keepdims.broadcastTo_a1_ab_apply]
  show Ideal.log (shapeCast S5000x1 _ shapeCasts_S5000_S5000x1 (ix2 p (0 : Fin 1))) = _
  rw [Keepdims.shapeCast_a_a1_apply]
  exact congrArg Ideal.log (RowReduce.rowSum_apply w 0x00000000#32 reduces_S5000x64_S5000 (.inl rfl) rfl p)

/-- The second body's stored value at row r, class c: the log-softmax of the rows of v0 plus the bias row v2.
    Write L (p, q) = v0 (p, q) + v2 (0, q). The body subtracts from L its row maximum m (kept as a column and
    broadcast back), exponentiates, sums each row, takes the logarithm of the column of sums, broadcasts it back and
    subtracts it: (L − m) − log Σ exp (L − m), entry by entry. -/
theorem pay1_apply (v0 : Vec Ideal S5000x64 .f32) (v2 : Vec Ideal S1x64 .f32) (r : Fin 5000) (c : Fin 64) :
    k1_pay1 v0 v2 (ix2 r c)
      = Cert.GraphConv.logSoftmax (fun (p : Fin 5000) (q : Fin 64) => v0 (ix2 p q) + v2 (ix2 (0 : Fin 1) q)) r c := by
  unfold k1_pay1
  rw [shapeCast_self v0, shapeCast_self v2]
  have hW : ∀ (a : Fin 5000) (b : Fin 64),
      addf (F := Ideal) (s := S5000x64) (φ := .f32) v0 (broadcastTo S5000x64 v2 broadcasts_S1x64_S5000x64) (ix2 a b)
        = v0 (ix2 a b) + v2 (ix2 (0 : Fin 1) b) :=
    fun a b => congrArg (v0 (ix2 a b) + ·) (broadcastTo_1b_ab_apply v2 _ a b)
  generalize addf (F := Ideal) (s := S5000x64) (φ := .f32) v0 (broadcastTo S5000x64 v2 broadcasts_S1x64_S5000x64) = W at hW ⊢
  have hM : ∀ (a : Fin 5000) (b : Fin 64),
      broadcastTo S5000x64 (shapeCast S5000x1 (multiReduction (F := Ideal) .maximumf [1] S5000 W 0xFF800000#32
          reduces_S5000x64_S5000 (.inl rfl) rfl) shapeCasts_S5000_S5000x1) broadcasts_S5000x1_S5000x64 (ix2 a b)
        = Cert.GraphConv.rowMax (fun (p : Fin 5000) (q : Fin 64) => v0 (ix2 p q) + v2 (ix2 (0 : Fin 1) q)) a :=
    fun a b => (rowMax_keep W a b).trans
      (congrArg (fun L => Cert.GraphConv.rowMax L a) (funext fun p => funext fun q => hW p q))
  generalize broadcastTo S5000x64 (shapeCast S5000x1 (multiReduction (F := Ideal) .maximumf [1] S5000 W 0xFF800000#32
      reduces_S5000x64_S5000 (.inl rfl) rfl) shapeCasts_S5000_S5000x1) broadcasts_S5000x1_S5000x64 = M at hM ⊢
  unfold Cert.GraphConv.logSoftmax
  refine congrArg₂ (· - ·) (congrArg₂ (· - ·) (hW r c) (hM r c)) ?_
  refine (rowLogSum_keep (exp (subf W M)) r c).trans ?_
  refine congrArg Ideal.log (Finset.sum_congr rfl fun k _ => ?_)
  show Ideal.exp (W (ix2 r k) - M (ix2 r k)) = _
  rw [hW, hM]

end Cert.KernelBodies

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«181841_j79379585564874_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.FiniteInputs.lean ====
/-
  The precondition, decoded: every float input is an array of real numbers.

  The printed test takes the five float inputs (node features, the two layers' weights and bias vectors) and the two
  integer edge lists, and answers one bit: the conjunction over the float inputs of "every entry is below +∞ in
  absolute value". On the extended reals that rules out both infinities, so when the test answers 1 every entry of
  every float input is a real number. Nothing is asked of the integer inputs.
-/
import proofs.«181841_j79379585564874_2_alg».proof.Pre_finite_inputs
import proofs.«181841_j79379585564874_2_alg».proof.Proof.LibFinDecode

noncomputable section

namespace Cert.FiniteInputs

open Idealize.ShloMosaic Idealize.ShloMosaic.ValueIdx Cert.LibFinite Cert.Pre_finite_inputs

/-- If the printed test "every float input is finite" evaluates to true, every entry of each of the five float inputs
    is a real number. The test is the conjunction, taken left to right, of one "all entries are below +∞ in absolute
    value" per array; a conjunction of one-bit words is 1 only when both words are, and each array's word being 1 says
    each of its entries is real. The two integer inputs play no part. -/
theorem all_inputs_fin [Facts] (a0 : FVec Ideal S50000x128 .f32) (a1 : FVec Ideal S128x128 .f32)
    (a2 : FVec Ideal S128 .f32) (a3 : FVec Ideal S128x64 .f32) (a4 : FVec Ideal S64 .f32)
    (a5 a6 : IVec S800000 32) (h : fn (F := Ideal) a0 a1 a2 a3 a4 a5 a6 = fun _ => 1#1) :
    (∀ i, IsFin (a0 i)) ∧ (∀ i, IsFin (a1 i)) ∧ (∀ i, IsFin (a2 i)) ∧ (∀ i, IsFin (a3 i)) ∧ (∀ i, IsFin (a4 i)) := by
  have h0 := congrFun h ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨LibFinDecode.all_fin a0 _ _ _ e0, LibFinDecode.all_fin a1 _ _ _ e1, LibFinDecode.all_fin a2 _ _ _ e2,
    LibFinDecode.all_fin a3 _ _ _ e3, LibFinDecode.all_fin a4 _ _ _ e4⟩

end Cert.FiniteInputs

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefRun.lean ====
/-
  The reference program's run, read back stretch by stretch.

  The reference computes, in thirty-nine host operations, a two-layer graph convolution followed by a log-softmax:
  relu (x · W1 + b1); a gather of the hidden rows at each edge's source node; a scatter-add of the gathered rows at
  each edge's destination node; the aggregate times W2 plus b2; and the log-softmax of each row. What the result
  buffer holds after the whole line is the composition of five short terms, one per stretch of the line; each stretch
  is read from ANY incoming contents, so the five readings compose without ever writing the whole composed term out.
-/
import proofs.«181841_j79379585564874_2_alg».proof.ReferenceIdeal
import proofs.«181841_j79379585564874_2_alg».proof.Proof.Gen.ReferenceIdeal
import proofs.«181841_j79379585564874_2_alg».proof.Proof.LibHostPieces
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The program's thirty-nine operations, in order (a called function's operations stand in its call's place). -/
abbrev ops : List (HloOp τ sig (Elt F)) :=
  [ binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v3) (TRef.of (T := ⟨S50000x128, .f32⟩) main_call0_v0) (TRef.of (T := ⟨S50000x128, .f32⟩) main_v4) maximumf,
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg5 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg5 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg5 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg6 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v14 main_arg3 main_v15 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0xFF800000#32),
    TRef.binary (TRef.of (T := ⟨S50000x64, .f32⟩) main_v18) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v18) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v19) subf ]

/-- The hidden layer: x · W1 + b1, then relu. -/
abbrev ops1 : List (HloOp τ sig (Elt F)) :=
  [ binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v3) (TRef.of (T := ⟨S50000x128, .f32⟩) main_call0_v0) (TRef.of (T := ⟨S50000x128, .f32⟩) main_v4) maximumf ]

/-- The source indices (a negative index counted from the end) and the gather of the hidden rows. -/
abbrev ops2 : List (HloOp τ sig (Elt F)) :=
  [ nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_arg5 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_arg5 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_arg5 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    binary main_v4 main_v10 main_v11 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]

/-- The scatter-add of the gathered rows into a zero array. -/
abbrev ops3 : List (HloOp τ sig (Elt F)) :=
  [ nullary main_cst (constant S_ .f32 0x00000000#32),
    unary main_cst main_v12 (broadcastInDim S50000x128 ![] bcast_S_S50000x128 : (⟨S_, .f32⟩ : BufTy).Contents (Elt F) → (⟨S50000x128, .f32⟩ : BufTy).Contents (Elt F)),
    unary main_arg6 main_v13 (broadcastInDim S800000x1 ![0] bcast_S800000_S800000x1_0 : (⟨S800000, .i32⟩ : BufTy).Contents (Elt F) → (⟨S800000x1, .i32⟩ : BufTy).Contents (Elt F)),
    ternary main_v12 main_v13 main_v11 main_v14 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The aggregate times W2, plus b2. -/
abbrev ops4 : List (HloOp τ sig (Elt F)) :=
  [ binary main_v14 main_arg3 main_v15 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S50000x64 ![0, 1] bcast_S1x64_S50000x64_0_1 : (⟨S1x64, .f32⟩ : BufTy).Contents (Elt F) → (⟨S50000x64, .f32⟩ : BufTy).Contents (Elt F)),
    binary main_v15 main_v17 main_v18 (addf : (⟨S50000x64, .f32⟩ : BufTy).Contents (Elt F) → (⟨S50000x64, .f32⟩ : BufTy).Contents (Elt F) → (⟨S50000x64, .f32⟩ : BufTy).Contents (Elt F)) ]

/-- The log-softmax of each row. -/
abbrev ops5 : List (HloOp τ sig (Elt F)) :=
  [ TRef.nullary (TRef.of (T := ⟨S_, .f32⟩) main_call1_cst) (constant S_ .f32 0xFF800000#32),
    TRef.binary (TRef.of (T := ⟨S50000x64, .f32⟩) main_v18) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v18) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v19) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The line is its five stretches, one after the other. -/
theorem ops_split : (ops : List (HloOp τ sig (Elt F))) = ops1 ++ (ops2 ++ (ops3 ++ (ops4 ++ ops5))) := rfl

/-! ## The five stretches' terms -/

/-- relu (x · W1 + b1): the product, the bias row stretched over the nodes, the maximum with the zero array. -/
def hidT (x0 : (⟨S50000x128, .f32⟩ : BufTy).Contents (Elt F)) (x1 : (⟨S128x128, .f32⟩ : BufTy).Contents (Elt F)) (x2 : (⟨S128, .f32⟩ : BufTy).Contents (Elt F)) : (⟨S50000x128, .f32⟩ : BufTy).Contents (Elt F) :=
  maximumf (addf (Host.dotGeneral dot_S50000x128_S128x128_S50000x128_1_0_0_1_n_n none x0 x1)
      (broadcastInDim S50000x128 ![0, 1] bcast_S1x128_S50000x128_0_1 (broadcastInDim S1x128 ![1] bcast_S128_S1x128_1 x2)))
    (broadcastInDim S50000x128 ![] bcast_S_S50000x128 (constant S_ .f32 0x00000000#32))

/-- The source indices as a column, 50000 added to a negative one. -/
def srcT (x5 : (⟨S800000, .i32⟩ : BufTy).Contents (Elt F)) : (⟨S800000x1, .i32⟩ : BufTy).Contents (Elt F) :=
  broadcastInDim S800000x1 ![0] bcast_S800000_S800000x1_0
    (select (cmpi .slt x5 (broadcastInDim S800000 ![] bcast_S_S800000 (constantI S_ 32 0#32)))
      (addi x5 (broadcastInDim S800000 ![] bcast_S_S800000 (constantI S_ 32 50000#32))) x5)

/-- The hidden rows gathered at the source indices. -/
def gathT (h : (⟨S50000x128, .f32⟩ : BufTy).Contents (Elt F)) (x5 : (⟨S800000, .i32⟩ : BufTy).Contents (Elt F)) : (⟨S800000x128, .f32⟩ : BufTy).Contents (Elt F) :=
  Host.gather gather_S50000x128_S800000x1_S800000x128_1_0_n_n_0_1_1128 h (srcT x5)

/-- The gathered rows added into a zero array at the destination indices. -/
def scatT (g : (⟨S800000x128, .f32⟩ : BufTy).Contents (Elt F)) (x6 : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x6) g

/-- The aggregate times W2, plus the bias row stretched over the nodes. -/
def logitT (s : (⟨S50000x128, .f32⟩ : BufTy).Contents (Elt F)) (x3 : (⟨S128x64, .f32⟩ : BufTy).Contents (Elt F)) (x4 : (⟨S64, .f32⟩ : BufTy).Contents (Elt F)) : (⟨S50000x64, .f32⟩ : BufTy).Contents (Elt F) :=
  addf (Host.dotGeneral dot_S50000x128_S128x64_S50000x64_1_0_0_1_n_n none s x3)
    (broadcastInDim S50000x64 ![0, 1] bcast_S1x64_S50000x64_0_1 (broadcastInDim S1x64 ![1] bcast_S64_S1x64_1 x4))

/-- Each row's maximum: the fold of max from −∞ along the row, and once more against −∞. -/
def rowMaxT (L : (⟨S50000x64, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf L (constant S_ .f32 0xFF800000#32) reducesTo_S50000x64_S50000_d1 h_S_)

/-- Each entry less its row's maximum. -/
def shiftT (L : (⟨S50000x64, .f32⟩ : BufTy).Contents (Elt F)) : (⟨S50000x64, .f32⟩ : BufTy).Contents (Elt F) :=
  subf L (broadcastInDim S50000x64 ![0, 1] bcast_S50000x1_S50000x64_0_1
    (broadcastInDim S50000x1 ![0] bcast_S50000_S50000x1_0 (rowMaxT L)))

/-- The logarithm of each row's sum of exponentials, stretched over the row. -/
def lseT (Z : (⟨S50000x64, .f32⟩ : BufTy).Contents (Elt F)) : (⟨S50000x64, .f32⟩ : BufTy).Contents (Elt F) :=
  broadcastInDim S50000x64 ![0, 1] bcast_S50000x1_S50000x64_0_1
    (Host.log (broadcastInDim S50000x1 ![0] bcast_S50000_S50000x1_0
      (Host.reduceAdd (Host.exp Z) (constant S_ .f32 0x00000000#32) reducesTo_S50000x64_S50000_d1 h_S_)))

/-- The log-softmax of each row. -/
def lsmT (L : (⟨S50000x64, .f32⟩ : BufTy).Contents (Elt F)) : (⟨S50000x64, .f32⟩ : BufTy).Contents (Elt F) := subf (shiftT L) (lseT (shiftT L))

/-! ## Each stretch read from any incoming contents -/

theorem s1_v4 (V : Valuation τ sig (Elt F)) :
    after ops1 V (Proc.devRef .tc main_v4) = hidT (V (Proc.devRef .tc main_arg0)) (V (Proc.devRef .tc main_arg1)) (V (Proc.devRef .tc main_arg2)) := by
  after_results_simp
  simp only [HostPieces.ofBuf_toBuf]
  rfl

theorem s2_v11 (V : Valuation τ sig (Elt F)) :
    after ops2 V (Proc.devRef .tc main_v11) = gathT (V (Proc.devRef .tc main_v4)) (V (Proc.devRef .tc main_arg5)) := by
  after_results_simp
  rfl

theorem s3_v14 (V : Valuation τ sig (Elt F)) :
    after ops3 V (Proc.devRef .tc main_v14) = scatT (V (Proc.devRef .tc main_v11)) (V (Proc.devRef .tc main_arg6)) := by
  after_results_simp
  rfl

theorem s4_v18 (V : Valuation τ sig (Elt F)) :
    after ops4 V (Proc.devRef .tc main_v18) = logitT (V (Proc.devRef .tc main_v14)) (V (Proc.devRef .tc main_arg3)) (V (Proc.devRef .tc main_arg4)) := by
  after_results_simp
  rfl

theorem s5_v19 (V : Valuation τ sig (Elt F)) :
    after ops5 V (Proc.devRef .tc main_v19) = lsmT (V (Proc.devRef .tc main_v18)) := by
  after_results_simp
  simp only [HostPieces.ofBuf_toBuf]
  rfl

/-! A stretch leaves the buffers it does not write as they were: the arguments the later stretches read. -/
theorem s1_arg3 (V : Valuation τ sig (Elt F)) : after ops1 V (Proc.devRef .tc main_arg3) = V (Proc.devRef .tc main_arg3) := by after_results_simp
theorem s1_arg4 (V : Valuation τ sig (Elt F)) : after ops1 V (Proc.devRef .tc main_arg4) = V (Proc.devRef .tc main_arg4) := by after_results_simp
theorem s1_arg5 (V : Valuation τ sig (Elt F)) : after ops1 V (Proc.devRef .tc main_arg5) = V (Proc.devRef .tc main_arg5) := by after_results_simp
theorem s1_arg6 (V : Valuation τ sig (Elt F)) : after ops1 V (Proc.devRef .tc main_arg6) = V (Proc.devRef .tc main_arg6) := by after_results_simp
theorem s2_arg3 (V : Valuation τ sig (Elt F)) : after ops2 V (Proc.devRef .tc main_arg3) = V (Proc.devRef .tc main_arg3) := by after_results_simp
theorem s2_arg4 (V : Valuation τ sig (Elt F)) : after ops2 V (Proc.devRef .tc main_arg4) = V (Proc.devRef .tc main_arg4) := by after_results_simp
theorem s2_arg6 (V : Valuation τ sig (Elt F)) : after ops2 V (Proc.devRef .tc main_arg6) = V (Proc.devRef .tc main_arg6) := by after_results_simp
theorem s3_arg3 (V : Valuation τ sig (Elt F)) : after ops3 V (Proc.devRef .tc main_arg3) = V (Proc.devRef .tc main_arg3) := by after_results_simp
theorem s3_arg4 (V : Valuation τ sig (Elt F)) : after ops3 V (Proc.devRef .tc main_arg4) = V (Proc.devRef .tc main_arg4) := by after_results_simp

/-! ## The whole line -/

/-- The reference's result as one function of the seven argument arrays: the five stretches' terms composed. -/
def refT (x0 : (⟨S50000x128, .f32⟩ : BufTy).Contents (Elt F)) (x1 : (⟨S128x128, .f32⟩ : BufTy).Contents (Elt F)) (x2 : (⟨S128, .f32⟩ : BufTy).Contents (Elt F)) (x3 : (⟨S128x64, .f32⟩ : BufTy).Contents (Elt F)) (x4 : (⟨S64, .f32⟩ : BufTy).Contents (Elt F))
    (x5 x6 : (⟨S800000, .i32⟩ : BufTy).Contents (Elt F)) : (⟨S50000x64, .f32⟩ : BufTy).Contents (Elt F) :=
  lsmT (logitT (scatT (gathT (hidT x0 x1 x2) x5) x6) x3 x4)

/-- What the result buffer holds after the whole line, from any incoming contents. -/
theorem ops_v19 (V : Valuation τ sig (Elt F)) :
    after ops V (Proc.devRef .tc main_v19)
      = refT (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) := by
  rw [ops_split, HostPieces.after_append, HostPieces.after_append, HostPieces.after_append, HostPieces.after_append]
  generalize h1 : after ops1 V = V1
  generalize h2 : after ops2 V1 = V2
  generalize h3 : after ops3 V2 = V3
  generalize h4 : after ops4 V3 = V4
  rw [s5_v19, ← h4, s4_v18, ← h3, s3_v14, s3_arg3, s3_arg4, ← h2, s2_v11, s2_arg3, s2_arg4, s2_arg6, ← h1, s1_v4,
    s1_arg3, s1_arg4, s1_arg5, s1_arg6]
  rfl

/-! The whole line leaves the seven arguments as they were. -/
theorem ops_arg0 (V : Valuation τ sig (Elt F)) : after ops V (Proc.devRef .tc main_arg0) = V (Proc.devRef .tc main_arg0) := by after_results_simp
theorem ops_arg1 (V : Valuation τ sig (Elt F)) : after ops V (Proc.devRef .tc main_arg1) = V (Proc.devRef .tc main_arg1) := by after_results_simp
theorem ops_arg2 (V : Valuation τ sig (Elt F)) : after ops V (Proc.devRef .tc main_arg2) = V (Proc.devRef .tc main_arg2) := by after_results_simp
theorem ops_arg3 (V : Valuation τ sig (Elt F)) : after ops V (Proc.devRef .tc main_arg3) = V (Proc.devRef .tc main_arg3) := by after_results_simp
theorem ops_arg4 (V : Valuation τ sig (Elt F)) : after ops V (Proc.devRef .tc main_arg4) = V (Proc.devRef .tc main_arg4) := by after_results_simp
theorem ops_arg5 (V : Valuation τ sig (Elt F)) : after ops V (Proc.devRef .tc main_arg5) = V (Proc.devRef .tc main_arg5) := by after_results_simp
theorem ops_arg6 (V : Valuation τ sig (Elt F)) : after ops V (Proc.devRef .tc main_arg6) = V (Proc.devRef .tc main_arg6) := by after_results_simp

/-- On every device, for any float values, from any memory with zero counters: every weakly fair execution of the
    reference terminates with its result at `refT` of the arguments and the arguments unchanged. -/
theorem run_refT (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refT (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v19).trans (ops_v19 _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _)⟩)
    (run_seq scopedRefs_eq scopedSems_eq defs main (fun _ => ops) main_eq (fun _ => ops_sub) m ρ)

end Cert.RefSide

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«181841_j79379585564874_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.RefValue.lean ====
/-
  The reference's result is the graph convolution with the hidden rows aggregated before the projection.

  Over the extended reals each of the reference's five stretches is read at an index: the hidden layer's entry is
  relu of the row-by-column sum plus the bias; the gather's row e is the hidden row of edge e's source node; the
  scatter-add's entry (i, k) is the sum of the gathered entries (e, k) over the edges e that end at node i; the logits
  are the aggregate's row-by-column sums with W2 plus the bias; and each row's log-softmax subtracts the row's
  maximum and then the logarithm of the row's sum of exponentials. Chained, the five readings are the aggregate-first
  arrangement of the two-layer graph convolution, entry by entry.
-/
import proofs.«181841_j79379585564874_2_alg».proof.Proof.RefRun
import proofs.«181841_j79379585564874_2_alg».proof.Proof.LibHostDotPlain
import proofs.«181841_j79379585564874_2_alg».proof.Proof.GraphConvOut
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Idealize.ShloMosaic Idealize.ShloMosaic.ValueIdx Idealize.ShloMosaic.TcCoe Idealize.SL.Sem
  Idealize.ShloMosaic.StableHlo Cert.GraphConv

/-! ## The layout operations at an index -/

/-- A row of length b stretched over a rows (through the one-row matrix), at (i, k): the row at k. -/
theorem rowBcast_apply {α : Type} {a b : ℕ} (hb : b ≠ 1)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (x : (⟨1, ![b]⟩ : Shape).Idx → α) (i : Fin a) (k : Fin b) :
    broadcastInDim ⟨2, ![a, b]⟩ ![0, 1] h2 (broadcastInDim ⟨2, ![1, b]⟩ ![1] h1 x) (ix2 i k) = x (ix1 k) := by
  rw [broadcastInDim_apply _ h2 _ (ix2 i k) (ix2 (0 : Fin 1) k) (fun a => match a with
    | ⟨0, _⟩ => by show 0 = if (1 : Nat) = 1 then 0 else i.val; rw [if_pos rfl]
    | ⟨1, _⟩ => by show k.val = if b = 1 then 0 else k.val; rw [if_neg hb])]
  exact broadcastInDim_apply _ h1 x (ix2 (0 : Fin 1) k) (ix1 k) (fun a => match a with
    | ⟨0, _⟩ => by show k.val = if b = 1 then 0 else k.val; rw [if_neg hb])

/-- A vector of length a stretched along b columns (through the one-column matrix), at (i, c): the vector at i. -/
theorem colBcast_apply {α : Type} {a b : ℕ} (ha : a ≠ 1)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (x : (⟨1, ![a]⟩ : Shape).Idx → α) (i : Fin a) (c : Fin b) :
    broadcastInDim ⟨2, ![a, b]⟩ ![0, 1] h2 (broadcastInDim ⟨2, ![a, 1]⟩ ![0] h1 x) (ix2 i c) = x (ix1 i) := by
  rw [broadcastInDim_apply _ h2 _ (ix2 i c) (ix2 i (0 : Fin 1)) (fun ax => match ax with
    | ⟨0, _⟩ => by show i.val = if a = 1 then 0 else i.val; rw [if_neg ha]
    | ⟨1, _⟩ => by show 0 = if (1 : Nat) = 1 then 0 else c.val; rw [if_pos rfl])]
  exact broadcastInDim_apply _ h1 x (ix2 i (0 : Fin 1)) (ix1 i) (fun ax => match ax with
    | ⟨0, _⟩ => by show i.val = if a = 1 then 0 else i.val; rw [if_neg ha])

/-- A scalar stretched over any shape reads the scalar everywhere. -/
theorem scalarBcast_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- The zero array reads 0 everywhere. -/
theorem zeros_apply {t : Shape} (h : (⟨0, ![]⟩ : Shape).BroadcastsInDim t (![] : Fin 0 → Fin t.rank)) (j : t.Idx) :
    broadcastInDim t ![] h (constant (F := Ideal) ⟨0, ![]⟩ .f32 0x00000000#32) j = 0 := by
  rw [scalarBcast_apply]
  exact Ideal.ofBits_zero_f32

/-! ## The hidden layer -/

/-- The hidden layer at (i, k): relu of the row-by-column sum plus the bias. -/
theorem hidT_apply (x0 : (⟨S50000x128, .f32⟩ : BufTy).Contents (Elt Ideal)) (x1 : (⟨S128x128, .f32⟩ : BufTy).Contents (Elt Ideal)) (x2 : (⟨S128, .f32⟩ : BufTy).Contents (Elt Ideal)) (i : Fin 50000) (k : Fin 128) :
    hidT (F := Ideal) x0 x1 x2 (ix2 i k) = hid (cur2 x0) (cur2 x1) (cur1 x2) i k := by
  unfold hidT hid cur2 cur1
  rw [maximumf_apply, addf_apply, zeros_apply, rowBcast_apply (by decide),
    show dot_S50000x128_S128x128_S50000x128_1_0_0_1_n_n = DotDims.plain 50000 128 128 from rfl,
    HostDotPlain.dotGeneral_apply]

/-! ## The gather and the scatter-add -/

/-- The gather's row e is the hidden row of edge e's source node. -/
theorem gathT_apply (h : (⟨S50000x128, .f32⟩ : BufTy).Contents (Elt Ideal)) (x5 : (⟨S800000, .i32⟩ : BufTy).Contents (Elt Ideal)) (e : Fin 800000) (k : Fin 128) :
    gathT (F := Ideal) h x5 (ix2 e k) = h (ix2 (srcRow x5 e) k) := by
  unfold gathT srcRow
  rw [show gather_S50000x128_S800000x1_S800000x128_1_0_n_n_0_1_1128
      = GatherRows.rowDims 50000 800000 128 gather_S50000x128_S800000x1_S800000x128_1_0_n_n_0_1_1128.wf from rfl]
  exact GatherRows.gather_rows_apply (by decide) _ h (srcT (F := Ideal) x5) e k

/-- The scatter-add stretch is the exact accumulating row scatter of the updates into the zero array, at the
    destination column. -/
theorem scatT_eq (g : (⟨S800000x128, .f32⟩ : BufTy).Contents (Elt Ideal)) (x6 : (⟨S800000, .i32⟩ : BufTy).Contents (Elt Ideal)) :
    scatT (F := Ideal) g x6
      = Ideal.hostScatterAdd (ScatterRows.rowDims 50000 800000 128 Cert.ReferenceIdeal.Gen.scatter_S50000x128_S800000x1_S800000x128_1_0_0_1_wf)
          (broadcastInDim S50000x128 ![] bcast_S_S50000x128 (constant (F := Ideal) S_ .f32 0x00000000#32)) (dstIdx x6) g := rfl

/-- The scatter-add into the zero array at (i, k): the sum of the update entries (e, k) over the edges e that end at
    node i. -/
theorem scatT_apply (g : (⟨S800000x128, .f32⟩ : BufTy).Contents (Elt Ideal)) (x6 : (⟨S800000, .i32⟩ : BufTy).Contents (Elt Ideal)) (i : Fin 50000) (k : Fin 128) :
    scatT (F := Ideal) g x6 (ix2 i k) = ∑ e ∈ dstSet x6 i, g (ix2 e k) := by
  rw [scatT_eq, ScatterRows.scatterAdd_rows_apply, zeros_apply, zero_add]
  rfl

/-! ## The logits -/

/-- The logits at (i, c): the aggregate's row-by-column sum with W2, plus the bias. -/
theorem logitT_apply (s : (⟨S50000x128, .f32⟩ : BufTy).Contents (Elt Ideal)) (x3 : (⟨S128x64, .f32⟩ : BufTy).Contents (Elt Ideal)) (x4 : (⟨S64, .f32⟩ : BufTy).Contents (Elt Ideal)) (i : Fin 50000) (c : Fin 64) :
    logitT (F := Ideal) s x3 x4 (ix2 i c) = (∑ k : Fin 128, s (ix2 i k) * x3 (ix2 k c)) + x4 (ix1 c) := by
  unfold logitT
  rw [addf_apply, rowBcast_apply (by decide),
    show dot_S50000x128_S128x64_S50000x64_1_0_0_1_n_n = DotDims.plain 50000 128 64 from rfl,
    HostDotPlain.dotGeneral_apply]

/-! ## The log-softmax -/

/-- A vector as a one-column matrix, at (i, u): the vector at i. -/
theorem col1_apply {α : Type} {a : ℕ} (ha : a ≠ 1)
    (h1 : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h1 x (ix2 i u) = x (ix1 i) :=
  broadcastInDim_apply _ h1 x (ix2 i u) (ix1 i) (fun ax => match ax with
    | ⟨0, _⟩ => by show i.val = if a = 1 then 0 else i.val; rw [if_neg ha])

/-- A one-column matrix stretched along b columns, at (i, c): the column at row i. -/
theorem col2_apply {α : Type} {a b : ℕ} (ha : a ≠ 1)
    (h2 : (⟨2, ![a, 1]⟩ : Shape).BroadcastsInDim ⟨2, ![a, b]⟩ (![0, 1] : Fin 2 → Fin 2))
    (y : (⟨2, ![a, 1]⟩ : Shape).Idx → α) (i : Fin a) (c : Fin b) :
    broadcastInDim ⟨2, ![a, b]⟩ ![0, 1] h2 y (ix2 i c) = y (ix2 i (0 : Fin 1)) :=
  broadcastInDim_apply _ h2 y (ix2 i c) (ix2 i (0 : Fin 1)) (fun ax => match ax with
    | ⟨0, _⟩ => by show i.val = if a = 1 then 0 else i.val; rw [if_neg ha]
    | ⟨1, _⟩ => by show 0 = if (1 : Nat) = 1 then 0 else c.val; rw [if_pos rfl])

/-- The word 0xFF800000 is −∞. -/
theorem ofBits_negInf : Ideal.ofBits .f32 0xFF800000#32 = (⊥ : EReal) := by simp [Ideal.ofBits, Ideal.ieee]

/-- A row's index with the column put back is (i, c). -/
theorem lift_row (h : S50000x64.Reduces [1] S50000) (i : Fin 50000) (c : Fin 64) :
    h.lift (ix1 i) c = ix2 i c :=
  funext fun a => Fin.ext (by match a with | ⟨0, _⟩ => rfl | ⟨1, _⟩ => rfl)

/-- Each row's maximum is the fold of max from −∞ over the row. -/
theorem rowMaxT_apply (L : (⟨S50000x64, .f32⟩ : BufTy).Contents (Elt Ideal)) (i : Fin 50000) :
    rowMaxT (F := Ideal) L (ix1 i) = rowMax (cur2 L) i := by
  have h : S50000x64.Reduces [1] S50000 := by decide
  unfold rowMaxT rowMax cur2
  rw [maximumf_apply, scalarBcast_apply, constant_apply,
    Host.reduce_eq_fold_single (α := Ideal .f32) (s := S50000x64) (t := S50000) (a := (1 : Fin 2)) (u := S_)
      FloatOps.maximumf L (constant (F := Ideal) S_ .f32 0xFF800000#32) reducesTo_S50000x64_S50000_d1 h h_S_ (ix1 i),
    constant_apply, ofBits_negInf,
    max_eq_right bot_le]
  have hf : (L ∘ h.lift (ix1 i)) = fun c : Fin 64 => L (ix2 i c) := funext fun c => congrArg L (lift_row h i c)
  exact congrArg (fun f => Finset.fold max (⊥ : EReal) f (Finset.univ : Finset (Fin 64))) hf

/-- Each entry less its row's maximum. -/
theorem shiftT_apply (L : (⟨S50000x64, .f32⟩ : BufTy).Contents (Elt Ideal)) (i : Fin 50000) (c : Fin 64) :
    shiftT (F := Ideal) L (ix2 i c) = L (ix2 i c) - rowMax (cur2 L) i := by
  unfold shiftT
  rw [subf_apply, col2_apply (by decide), col1_apply (by decide), rowMaxT_apply]

/-- A row's sum from the zero word: the sum of the row's entries. -/
theorem rowSum_apply (Y : (⟨S50000x64, .f32⟩ : BufTy).Contents (Elt Ideal)) (i : Fin 50000) :
    Host.reduceAdd (F := Ideal) Y (constant S_ .f32 0x00000000#32) reducesTo_S50000x64_S50000_d1 h_S_ (ix1 i)
      = ∑ c : Fin 64, Y (ix2 i c) := by
  have h : S50000x64.Reduces [1] S50000 := by decide
  unfold Host.reduceAdd
  rw [Ideal.hostReduceAdd_def, Ideal.hostReduceAdd_single reducesTo_S50000x64_S50000_d1 h, constant_apply,
    Ideal.ofBits_zero_f32, zero_add]
  exact Finset.sum_congr rfl fun c _ => congrArg Y (lift_row h i c)

/-- The host's logarithm and exponential act entry by entry. -/
theorem hostLog_apply {s : Shape} (x : FVec Ideal s .f32) (j : s.Idx) : Host.log x j = Ideal.log (x j) := rfl
theorem hostExp_apply {s : Shape} (x : FVec Ideal s .f32) (j : s.Idx) : Host.exp x j = Ideal.exp (x j) := rfl

/-- The logarithm of a row's sum of exponentials, read at any column of the row. -/
theorem lseT_apply (Z : (⟨S50000x64, .f32⟩ : BufTy).Contents (Elt Ideal)) (i : Fin 50000) (c : Fin 64) :
    lseT (F := Ideal) Z (ix2 i c) = Ideal.log (∑ c' : Fin 64, Ideal.exp (Z (ix2 i c'))) := by
  unfold lseT
  rw [col2_apply (by decide), hostLog_apply, col1_apply (by decide), rowSum_apply]
  simp only [hostExp_apply]

/-- The log-softmax stretch at (i, c) is the log-softmax of row i at c. -/
theorem lsmT_apply (L : (⟨S50000x64, .f32⟩ : BufTy).Contents (Elt Ideal)) (i : Fin 50000) (c : Fin 64) :
    lsmT (F := Ideal) L (ix2 i c) = logSoftmax (cur2 L) i c := by
  unfold lsmT logSoftmax
  rw [subf_apply, lseT_apply, shiftT_apply]
  simp only [shiftT_apply]
  rfl

/-! ## The five readings chained -/

/-- The logits the reference computes are the aggregate-first logits of the graph convolution. -/
theorem logits_cur (x0 : (⟨S50000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 x6 : (⟨S800000, .i32⟩ : BufTy).Contents (Elt Ideal)) :
    cur2 (logitT (F := Ideal) (scatT (gathT (hidT x0 x1 x2) x5) x6) x3 x4)
      = logitsAggFirst (hid (cur2 x0) (cur2 x1) (cur1 x2)) (cur2 x3) (cur1 x4) (dstSet x6) (srcRow x5) := by
  funext i c
  show logitT (F := Ideal) (scatT (gathT (hidT x0 x1 x2) x5) x6) x3 x4 (ix2 i c)
    = (∑ k, (∑ e ∈ dstSet x6 i, hid (cur2 x0) (cur2 x1) (cur1 x2) (srcRow x5 e) k) * cur2 x3 k c) + cur1 x4 c
  rw [logitT_apply]
  refine congrArg₂ (· + ·) (Finset.sum_congr rfl fun k _ => congrArg₂ (· * ·) ?_ rfl) rfl
  rw [scatT_apply]
  exact Finset.sum_congr rfl fun e _ => by rw [gathT_apply, hidT_apply]

/-- The reference's result is the graph convolution's, the hidden rows aggregated before the projection. -/
theorem refT_eq (x0 : (⟨S50000x128, .f32⟩ : BufTy).Contents (Elt Ideal)) (x1 : (⟨S128x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 x6 : (⟨S800000, .i32⟩ : BufTy).Contents (Elt Ideal)) :
    refT (F := Ideal) x0 x1 x2 x3 x4 x5 x6 = outAggFirst x0 x1 x2 x3 x4 x5 x6 := by
  funext j
  obtain ⟨i, c, rfl⟩ : ∃ (i : Fin 50000) (c : Fin 64), j = ix2 i c := ⟨j 0, j 1, eq_ix2 j⟩
  show lsmT (F := Ideal) (logitT (scatT (gathT (hidT x0 x1 x2) x5) x6) x3 x4) (ix2 i c)
    = logSoftmax (logitsAggFirst (hid (cur2 x0) (cur2 x1) (cur1 x2)) (cur2 x3) (cur1 x4) (dstSet x6) (srcRow x5)) i c
  rw [lsmT_apply, logits_cur]

/-- On every device, from any memory with zero counters: every weakly fair execution of the idealized reference
    terminates with its result the aggregate-first graph convolution of the seven arguments, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = outAggFirst (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (refT_eq _ _ _ _ _ _ _), (h c).2⟩) (run_refT m ρ)

end Cert.RefSide

end
-- ==== Proof.lean ====
/-
  A two-layer graph convolution on 50000 nodes and 800000 edges: relu (x · W1 + b1), aggregated along the edges, times
  W2 plus b2, then a log-softmax of each node's 64 logits.

  The kernel multiplies each node's hidden row by W2 BEFORE the aggregation (one fused launch over 10 row blocks, in
  bf16 between the two products — a change of format is the identity on the extended reals), gathers and adds the
  64-wide projected rows on the host, and finishes with a second launch for the bias and the log-softmax. The reference
  aggregates the 128-wide hidden rows first and multiplies the aggregate by W2. Entry (i, c) of the logits is
      Σ_{e ends at i} Σ_k h (src e, k) · W2 (k, c) + b2 c      in the kernel, and
      Σ_k (Σ_{e ends at i} h (src e, k)) · W2 (k, c) + b2 c    in the reference:
  the same number once the two finite sums are exchanged and W2 (k, c) is pulled out of the inner one, which is
  distributivity and therefore uses that x, W1, b1 and W2 hold real numbers (the precondition). Both programs read the
  edge list in the same way — a negative source index counted from the end, a source clamped into range, an edge whose
  destination names no node dropped — so the edges that end at a node and an edge's source are the same on both sides,
  and the log-softmax of equal logits is equal.

  The three frames: the two kernels' are the generated ones; the reference's is its run with the result dropped. The
  idealization rewrote nothing, so there is nothing to preserve.
-/
import proofs.«181841_j79379585564874_2_alg».proof.Defs
import proofs.«181841_j79379585564874_2_alg».proof.Proof.Gen.Kernel
import proofs.«181841_j79379585564874_2_alg».proof.Proof.Gen.Kernel.Skeleton
import proofs.«181841_j79379585564874_2_alg».proof.Proof.Gen.Kernel.Launch
import proofs.«181841_j79379585564874_2_alg».proof.Proof.Gen.Kernel.Points
import proofs.«181841_j79379585564874_2_alg».proof.Proof.Gen.Kernel.Frame
import proofs.«181841_j79379585564874_2_alg».proof.Proof.Gen.KernelIdeal
import proofs.«181841_j79379585564874_2_alg».proof.Proof.Gen.KernelIdeal.Skeleton
import proofs.«181841_j79379585564874_2_alg».proof.Proof.Gen.KernelIdeal.Launch
import proofs.«181841_j79379585564874_2_alg».proof.Proof.Gen.KernelIdeal.Points
import proofs.«181841_j79379585564874_2_alg».proof.Proof.Gen.KernelIdeal.Frame
import proofs.«181841_j79379585564874_2_alg».proof.Proof.Gen.ReferenceIdeal
import proofs.«181841_j79379585564874_2_alg».proof.Proof.Gen.Pre_finite_inputs
import proofs.«181841_j79379585564874_2_alg».proof.Proof.KernelValue
import proofs.«181841_j79379585564874_2_alg».proof.Proof.KernelBodies
import proofs.«181841_j79379585564874_2_alg».proof.Proof.FiniteInputs
import proofs.«181841_j79379585564874_2_alg».proof.Proof.RefValue
import proofs.«181841_j79379585564874_2_alg».proof.Proof.GraphConvOut
import Idealize.ShloMosaic.Adequacy
import Idealize.ShloMosaic.Init

noncomputable section

namespace Cert.Proof

open Idealize.ShloMosaic Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- So does the idealized reference: its run, the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.RefSide.run m ρ)

/-- From memories that agree on the arguments the two idealized programs end with equal results: the kernel at the
    projecting-first arrangement, the reference at the aggregating-first one, equal on real inputs. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelSide.run m ρ Cert.KernelBodies.pay0_apply Cert.KernelBodies.pay1_apply, ?_⟩
  refine (θ_run Cert.ReferenceIdeal.defs _ _).mono (fun _ h c => ⟨(h c).1.trans ?_, (h c).2⟩) (Cert.RefSide.run m' ρ')
  obtain ⟨g0, g1, g2, g3, g4, g5, g6⟩ := hagree c
  rw [g0, g1, g2, g3, g4, g5, g6]
  obtain ⟨f0, f1, f2, f3, _⟩ := Cert.FiniteInputs.all_inputs_fin _ _ _ _ _ _ _ (hpre c)
  exact (Cert.GraphConv.out_eq _ _ _ f0 f1 f2 f3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
